-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S5494x64 : Shape := ⟨2, ![5494, 64]⟩
abbrev S5494 : Shape := ⟨1, ![5494]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S5494x64 : S_.BroadcastsInDim S5494x64 (![] : Fin 0 → Fin S5494x64.rank)
  reducesTo_S5494x64_S_d0_1 : S5494x64.ReducesTo [0, 1] S_
  bcast_S_S5494 : S_.BroadcastsInDim S5494 (![] : Fin 0 → Fin S5494.rank)
  reducesTo_S5494_S_d0 : S5494.ReducesTo [0] S_

variable [Facts]

def fn {F : FTy → Type} [FloatOps F] (main_arg0 : FVec F S8192x64 .f32) (main_arg1 : FVec F S5494x64 .f32) (main_arg2 : FVec F S5494 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S5494x64 .f32 := Host.absf main_arg1
  let main_cst_0 : FVec F S_ .f32 := constant S_ .f32 0x7F800000#32
  let main_v5 : FVec F S5494x64 .f32 := broadcastInDim S5494x64 ![] bcast_S_S5494x64 main_cst_0
  let main_v6 : IVec S5494x64 1 := cmpf .olt main_v4 main_v5
  let main_c_1 : IVec S_ 1 := constantI S_ 1 1#1
  let main_v7 : IVec S_ 1 := (fun x v => Host.reduce IntOp.andi x v reducesTo_S5494x64_S_d0_1 h_S_) main_v6 main_c_1
  let main_v8 : IVec S_ 1 := andi main_v3 main_v7
  let main_v9 : FVec F S5494 .f32 := Host.absf main_arg2
  let main_cst_2 : FVec F S_ .f32 := constant S_ .f32 0x7F800000#32
  let main_v10 : FVec F S5494 .f32 := broadcastInDim S5494 ![] bcast_S_S5494 main_cst_2
  let main_v11 : IVec S5494 1 := cmpf .olt main_v9 main_v10
  let main_c_3 : IVec S_ 1 := constantI S_ 1 1#1
  let main_v12 : IVec S_ 1 := (fun x v => Host.reduce IntOp.andi x v reducesTo_S5494_S_d0 h_S_) main_v11 main_c_3
  let main_v13 : IVec S_ 1 := andi main_v8 main_v12
  main_v13
-- ==== Kernel.lean ====
abbrev S8192x64 : Shape := ⟨2, ![8192, 64]⟩
abbrev S5494x64 : Shape := ⟨2, ![5494, 64]⟩
abbrev S5494 : Shape := ⟨1, ![5494]⟩
abbrev S67x82x64 : Shape := ⟨3, ![67, 82, 64]⟩
abbrev S82x67x64 : Shape := ⟨3, ![82, 67, 64]⟩
abbrev S67x82 : Shape := ⟨2, ![67, 82]⟩
abbrev S82x67 : Shape := ⟨2, ![82, 67]⟩
abbrev S_ : Shape := ⟨0, ![]⟩
abbrev S5632x64 : Shape := ⟨2, ![5632, 64]⟩
abbrev S5632 : Shape := ⟨1, ![5632]⟩
abbrev S1x5632 : Shape := ⟨2, ![1, 5632]⟩
abbrev S8192x5494 : Shape := ⟨2, ![8192, 5494]⟩
abbrev S256x64 : Shape := ⟨2, ![256, 64]⟩
abbrev S1x256 : Shape := ⟨2, ![1, 256]⟩
abbrev S8192x256 : Shape := ⟨2, ![8192, 256]⟩
abbrev S8192x82x67 : Shape := ⟨3, ![8192, 82, 67]⟩
abbrev S8192x82x67x1 : Shape := ⟨4, ![8192, 82, 67, 1]⟩

abbrev nBuf : Space → Nat
  | .hbm => 21
  | .vmem => 7
  | .smem => 0
  | _ => 0

abbrev bufTy : (tb : Table) → Fin (tcTables nBuf tb) → BufTy
  | .hbm, ⟨0, _⟩ => ⟨S8192x64, .f32⟩
  | .hbm, ⟨1, _⟩ => ⟨S5494x64, .f32⟩
  | .hbm, ⟨2, _⟩ => ⟨S5494, .f32⟩
  | .hbm, ⟨3, _⟩ => ⟨S67x82x64, .f32⟩
  | .hbm, ⟨4, _⟩ => ⟨S82x67x64, .f32⟩
  | .hbm, ⟨5, _⟩ => ⟨S5494x64, .f32⟩
  | .hbm, ⟨6, _⟩ => ⟨S67x82, .f32⟩
  | .hbm, ⟨7, _⟩ => ⟨S82x67, .f32⟩
  | .hbm, ⟨8, _⟩ => ⟨S5494, .f32⟩
  | .hbm, ⟨9, _⟩ => ⟨S_, .i32⟩
  | .hbm, ⟨10, _⟩ => ⟨S_, .f32⟩
  | .hbm, ⟨11, _⟩ => ⟨S5632x64, .f32⟩
  | .hbm, ⟨12, _⟩ => ⟨S5632x64, .bf16⟩
  | .hbm, ⟨13, _⟩ => ⟨S_, .i32⟩
  | .hbm, ⟨14, _⟩ => ⟨S_, .f32⟩
  | .hbm, ⟨15, _⟩ => ⟨S5632, .f32⟩
  | .hbm, ⟨16, _⟩ => ⟨S1x5632, .f32⟩
  | .hbm, ⟨17, _⟩ => ⟨S8192x64, .bf16⟩
  | .hbm, ⟨18, _⟩ => ⟨S8192x5494, .f32⟩
  | .hbm, ⟨19, _⟩ => ⟨S8192x82x67, .f32⟩
  | .hbm, ⟨20, _⟩ => ⟨S8192x82x67x1, .f32⟩
  | .local _ .vmem, ⟨0, _⟩ => ⟨S8192x64, .bf16⟩
  | .local _ .vmem, ⟨1, _⟩ => ⟨S256x64, .bf16⟩
  | .local _ .vmem, ⟨2, _⟩ => ⟨S256x64, .bf16⟩
  | .local _ .vmem, ⟨3, _⟩ => ⟨S1x256, .f32⟩
  | .local _ .vmem, ⟨4, _⟩ => ⟨S1x256, .f32⟩
  | .local _ .vmem, ⟨5, _⟩ => ⟨S8192x256, .f32⟩
  | .local _ .vmem, ⟨6, _⟩ => ⟨S8192x256, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8192x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S5494x64_S67x82x64 : S5494x64.ShapeCasts S67x82x64
  transposes_S67x82x64_S82x67x64_1_0_2 : S67x82x64.Transposes [1, 0, 2] S82x67x64
  shapeCasts_S82x67x64_S5494x64 : S82x67x64.ShapeCasts S5494x64
  shapeCasts_S5494_S67x82 : S5494.ShapeCasts S67x82
  transposes_S67x82_S82x67_1_0 : S67x82.Transposes [1, 0] S82x67
  shapeCasts_S82x67_S5494 : S82x67.ShapeCasts S5494
  pads_S5494x64_S5632x64_01380_000 : S5494x64.Pads (![0, 0] : Fin 2 → Nat) ![138, 0] ![0, 0] S5632x64
  h_S_ : 0 < S_.numel
  bitsLt_bf16_f32 : FTy.bits .bf16 < FTy.bits .f32
  pads_S5494_S5632_01380 : S5494.Pads (![0] : Fin 1 → Nat) ![138] ![0] S5632
  shapeCasts_S5632_S1x5632 : S5632.ShapeCasts S1x5632
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S8192x256_S8192x256_0_0 : ∀ a, (![0, 0] : Fin 2 → Nat) a + S8192x256.size a ≤ S8192x256.size a
  h_S8192x256 : 0 < S8192x256.numel
  shapeCasts_S8192x5494_S8192x82x67 : S8192x5494.ShapeCasts S8192x82x67
  bcast_S8192x82x67_S8192x82x67x1_0_1_2 : S8192x82x67.BroadcastsInDim S8192x82x67x1 (![0, 1, 2] : Fin 3 → Fin S8192x82x67x1.rank)
  dot_S8192x64_S256x64_S8192x256_1_1_0_0_n_n_wf : DotDims.WF S8192x64 S256x64 S8192x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S8192x64.size a
  hwx0_0 : ∀ i : grid0.Coords, EltTy.bits .bf16 = 32 ∨ (Rect.block (s := S8192x64) S8192x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S5632x64.size a
  hwx0_1 : ∀ i : grid0.Coords, EltTy.bits .bf16 = 32 ∨ (Rect.block (s := S5632x64) S256x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x5632.size a
  hwx0_2 : ∀ i : grid0.Coords, EltTy.bits .f32 = 32 ∨ (Rect.block (s := S1x5632) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8192x256.size a < S8192x5494.size a
  hwx0_3 : ∀ i : grid0.Coords, EltTy.bits .f32 = 32 ∨ (Rect.unit (s := S8192x5494) (fun a => cc0_transform_3 i a * S8192x256.size a) (fun a => (Pipeline.Clip.of (cc0_transform_3 i a) (S8192x256.size a) (S8192x5494.size a)).extent (S8192x256.size a)) fun a => Pipeline.Clip.inb (Pipeline.Clip.ok_of (hstart0_3 i a))).WholeWords (EltTy.packing .f32)
  hwxs0_3 : ∀ i : grid0.Coords, EltTy.bits .f32 = 32 ∨ (Rect.unit (s := S8192x256) (fun _ => 0) (fun a => (Pipeline.Clip.of (cc0_transform_3 i a) (S8192x256.size a) (S8192x5494.size a)).extent (S8192x256.size a)) fun a => (Nat.zero_add _).trans_le (Pipeline.Clip.extent_le (Pipeline.Clip.ok_of (hstart0_3 i a)))).WholeWords (EltTy.packing .f32)

variable [Facts₀]

def dot_S8192x64_S256x64_S8192x256_1_1_0_0_n_n : DotDims S8192x64 S256x64 S8192x256 where
  lhsContracting := [1]
  rhsContracting := [1]
  lhsNonContracting := [0]
  rhsNonContracting := [0]
  lhsBatch := []
  rhsBatch := []
  wf := dot_S8192x64_S256x64_S8192x256_1_1_0_0_n_n_wf

abbrev win0_0 : Pipeline.Window sig grid0 :=
  Pipeline.Window.ofSpec (Memref.whole main_v10) S8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_v11) S8192x256.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x64 : Shape := ⟨2, ![8192, 64]⟩
abbrev S5494x64 : Shape := ⟨2, ![5494, 64]⟩
abbrev S5494 : Shape := ⟨1, ![5494]⟩
abbrev S8192x5494 : Shape := ⟨2, ![8192, 5494]⟩
abbrev S1x5494 : Shape := ⟨2, ![1, 5494]⟩
abbrev S8192x67x82 : Shape := ⟨3, ![8192, 67, 82]⟩
abbrev S8192x82x67 : Shape := ⟨3, ![8192, 82, 67]⟩
abbrev S8192x82x67x1 : Shape := ⟨4, ![8192, 82, 67, 1]⟩

abbrev nBuf : Space → Nat
  | .hbm => 10
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S5494x64, .f32⟩
  | .hbm, ⟨2, _⟩ => ⟨S5494, .f32⟩
  | .hbm, ⟨3, _⟩ => ⟨S8192x5494, .f32⟩
  | .hbm, ⟨4, _⟩ => ⟨S1x5494, .f32⟩
  | .hbm, ⟨5, _⟩ => ⟨S8192x5494, .f32⟩
  | .hbm, ⟨6, _⟩ => ⟨S8192x5494, .f32⟩
  | .hbm, ⟨7, _⟩ => ⟨S8192x67x82, .f32⟩
  | .hbm, ⟨8, _⟩ => ⟨S8192x82x67, .f32⟩
  | .hbm, ⟨9, _⟩ => ⟨S8192x82x67x1, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S5494_S1x5494_1 : S5494.BroadcastsInDim S1x5494 (![1] : Fin 1 → Fin S1x5494.rank)
  bcast_S1x5494_S8192x5494_0_1 : S1x5494.BroadcastsInDim S8192x5494 (![0, 1] : Fin 2 → Fin S8192x5494.rank)
  shapeCasts_S8192x5494_S8192x67x82 : S8192x5494.ShapeCasts S8192x67x82
  transposes_S8192x67x82_S8192x82x67_0_2_1 : S8192x67x82.Transposes [0, 2, 1] S8192x82x67
  bcast_S8192x82x67_S8192x82x67x1_0_1_2 : S8192x82x67.BroadcastsInDim S8192x82x67x1 (![0, 1, 2] : Fin 3 → Fin S8192x82x67x1.rank)
  dot_S8192x64_S5494x64_S8192x5494_1_1_0_0_n_n_wf : DotDims.WF S8192x64 S5494x64 S8192x5494 [1] [1] [0] [0] [] []

variable [Facts₀]

def dot_S8192x64_S5494x64_S8192x5494_1_1_0_0_n_n : DotDims S8192x64 S5494x64 S8192x5494 where
  lhsContracting := [1]
  rhsContracting := [1]
  lhsNonContracting := [0]
  rhsNonContracting := [0]
  lhsBatch := []
  rhsBatch := []
  wf := dot_S8192x64_S5494x64_S8192x5494_1_1_0_0_n_n_wf

class Facts : Prop extends Facts₀ where

variable [Facts]
-- ==== Proof.Spec.lean ====
/-
  The function both programs compute, on whole arrays of extended reals.

  There are 5494 linear "pixel heads", one per position of an 82 × 67 grid; the head of the pixel at grid position
  (x, y) is pixel number y · 82 + x. Each head takes a row of 64 features to one number: the dot product of the row
  with the head's 64 weights, plus the head's bias. The result array holds, for each of the 8192 rows and each grid
  position, the value of that position's head on that row.
-/
import Idealize.ShloMosaic.PureOps.Ideal
import Idealize.ShloMosaic.Lib.ValueIdx

noncomputable section

open scoped BigOperators

namespace Cert.PixelHeads

open Idealize.ShloMosaic Idealize.ShloMosaic.ValueIdx

/-- The number of the pixel at grid position `(x, y)`: rows of the grid are 82 long, so it is `y · 82 + x`. -/
def pixel (x : Fin 82) (y : Fin 67) : Fin 5494 :=
  ⟨y.val * 82 + x.val, by have := x.isLt; have := y.isLt; omega⟩

/-- Head `p` on row `r`: the dot product of row `r` of the features with row `p` of the weights, plus bias `p`. -/
def head (a : (⟨2, ![8192, 64]⟩ : Shape).Idx → EReal) (w : (⟨2, ![5494, 64]⟩ : Shape).Idx → EReal)
    (bias : (⟨1, ![5494]⟩ : Shape).Idx → EReal) (r : Fin 8192) (p : Fin 5494) : EReal :=
  (∑ k : Fin 64, a (ix2 r k) * w (ix2 p k)) + bias (ix1 p)

/-- Every head on every row, laid out by grid position: entry `(r, x, y, 0)` is the head of pixel `(x, y)` on row `r`. -/
def heads (a : (⟨2, ![8192, 64]⟩ : Shape).Idx → EReal) (w : (⟨2, ![5494, 64]⟩ : Shape).Idx → EReal)
    (bias : (⟨1, ![5494]⟩ : Shape).Idx → EReal) : (⟨4, ![8192, 82, 67, 1]⟩ : Shape).Idx → EReal :=
  fun i => head a w bias (i 0) (pixel (i 1) (i 2))

end Cert.PixelHeads

end
-- ==== Proof.RefSide.lean ====
/-
  The reference computes the specification.

  It takes all the dot products at once (a [8192, 64] by [5494, 64] contraction over the 64 features), adds the bias
  along the pixel axis, and then lays the 5494 pixel numbers out on the grid: pixel number p = y · 82 + x is first
  split as (y, x) — a reshape of the pixel axis into 67 rows of 82 — and the two grid axes are then swapped, so that
  entry (r, x, y, 0) of the result is entry (r, y · 82 + x) of the biased product.
-/
import proofs.«101536_j62929860821463_2_alg».proof.Proof.Gen.ReferenceIdeal.Read
import proofs.«101536_j62929860821463_2_alg».proof.Proof.Spec

noncomputable section

open scoped BigOperators

namespace Cert.PixelHeads

open Idealize.ShloMosaic Idealize.ShloMosaic.ValueIdx Cert.ReferenceIdeal Cert.ReferenceIdeal.Read

/-- The reference's result, read one operation at a time down to the arguments, is `heads`: at `(r, x, y, 0)` the
    transpose reads `(r, y, x)`, the reshape reads flat position `(r · 67 + y) · 82 + x`, whose row is `r` and whose
    column is `y · 82 + x`, and there the biased product is the dot product of rows `r` and `y · 82 + x` plus bias
    `y · 82 + x`. -/
theorem reference_eq_heads (x0 : (⟨S8192x64, .f32⟩ : BufTy).Contents (Elt Ideal))
    (x1 : (⟨S5494x64, .f32⟩ : BufTy).Contents (Elt Ideal)) (x2 : (⟨S5494, .f32⟩ : BufTy).Contents (Elt Ideal)) :
    val_main_v6 (F := Ideal) x0 x1 x2 = heads x0 x1 x2 := by
  funext i
  have h0 : (i 0).val < 8192 := (i 0).isLt
  have h1 : (i 1).val < 82 := (i 1).isLt
  have h2 : (i 2).val < 67 := (i 2).isLt
  have el : ∀ k : Fin 64, lidx_main_v0 (idx_main_v4 (idx_main_v5 (idx_main_v6 i))) k = ix2 (i 0) k := fun k =>
    funext fun a => Fin.ext (by
      match a with
      | ⟨0, _⟩ => show (((i 0).val * 67 + (i 2).val) * 82 + (i 1).val) / 5494 = (i 0).val; omega
      | ⟨1, _⟩ => rfl)
  have er : ∀ k : Fin 64, ridx_main_v0 (idx_main_v4 (idx_main_v5 (idx_main_v6 i))) k = ix2 (pixel (i 1) (i 2)) k := fun k =>
    funext fun a => Fin.ext (by
      match a with
      | ⟨0, _⟩ => show (((i 0).val * 67 + (i 2).val) * 82 + (i 1).val) % 5494 = (i 2).val * 82 + (i 1).val; omega
      | ⟨1, _⟩ => rfl)
  have eb : idx_main_v1 (idx_main_v2 (idx_main_v4 (idx_main_v5 (idx_main_v6 i)))) = ix1 (pixel (i 1) (i 2)) :=
    funext fun a => Fin.ext (by
      match a with
      | ⟨0, _⟩ => show (((i 0).val * 67 + (i 2).val) * 82 + (i 1).val) % 5494 = (i 2).val * 82 + (i 1).val; omega)
  rw [val_main_v6_apply, val_main_v5_apply, val_main_v4_apply, val_main_v3_apply, val_main_v0_apply, val_main_v2_apply,
    val_main_v1_apply, eb]
  simp only [el, er]
  rfl

end Cert.PixelHeads

end
-- ==== Proof.Tile.lean ====
/-
  One tile of the kernel, read at an entry.

  At a grid point the body holds all 8192 feature rows, a block of 256 weight rows and the matching 256 biases as a
  [1, 256] row. It contracts the features of each feature row with each weight row of the block (both operands are
  contracted on their second axis, so the weight block is used as it lies, untransposed), starting from zero, and adds
  the bias row to every row of the product. So entry (p, q) of the tile is the dot product of feature row p with
  weight row q of the block, plus bias q of the block.
-/
import proofs.«101536_j62929860821463_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.PixelHeads

open Idealize.ShloMosaic Idealize.ShloMosaic.ValueIdx Cert.KernelIdeal Cert.KernelIdeal.Gen

/-- The left operand's index for output entry `i` and contraction position `κ`: its row is the output's row. -/
theorem dot_lhs_row (i : S8192x256.Idx) (κ : dot_S8192x64_S256x64_S8192x256_1_1_0_0_n_n.contr.Idx) :
    (dot_S8192x64_S256x64_S8192x256_1_1_0_0_n_n.lhsIdx i κ 0).val = (i 0).val := by
  unfold DotDims.lhsIdx
  rw [dif_neg (show ¬(0 : Fin S8192x64.rank) ∈ dot_S8192x64_S256x64_S8192x256_1_1_0_0_n_n.lhsBatch by decide),
    dif_pos (show (0 : Fin S8192x64.rank) ∈ dot_S8192x64_S256x64_S8192x256_1_1_0_0_n_n.lhsNonContracting by decide)]
  rfl

/-- The right operand's index: its row is the output's COLUMN (the weight block is contracted on its second axis). -/
theorem dot_rhs_row (i : S8192x256.Idx) (κ : dot_S8192x64_S256x64_S8192x256_1_1_0_0_n_n.contr.Idx) :
    (dot_S8192x64_S256x64_S8192x256_1_1_0_0_n_n.rhsIdx i κ 0).val = (i 1).val := by
  unfold DotDims.rhsIdx
  rw [dif_neg (show ¬(0 : Fin S256x64.rank) ∈ dot_S8192x64_S256x64_S8192x256_1_1_0_0_n_n.rhsBatch by decide),
    dif_pos (show (0 : Fin S256x64.rank) ∈ dot_S8192x64_S256x64_S8192x256_1_1_0_0_n_n.rhsNonContracting by decide)]
  rfl

/-- The product into the zero accumulator, at entry `(p, q)`: the sum over the 64 features of feature row `p` times
    weight row `q`. -/
theorem tile_dot (l : FVec Ideal S8192x64 .bf16) (r : FVec Ideal S256x64 .bf16) (p : Fin 8192) (q : Fin 256) :
    matmul (F := Ideal) dot_S8192x64_S256x64_S8192x256_1_1_0_0_n_n none l r (constant S8192x256 .f32 0x00000000#32) (ix2 p q)
      = ∑ k : Fin 64, l (ix2 p k) * r (ix2 q k) := by
  simp only [matmul]
  rw [Ideal.matmul_constant_zero_apply,
    ← Equiv.sum_comp (contrEquiv1 dot_S8192x64_S256x64_S8192x256_1_1_0_0_n_n 64 rfl rfl).symm]
  refine Finset.sum_congr rfl fun k _ => ?_
  have hk := contrEquiv1_symm_val dot_S8192x64_S256x64_S8192x256_1_1_0_0_n_n 64 rfl rfl k
  have el : dot_S8192x64_S256x64_S8192x256_1_1_0_0_n_n.lhsIdx (ix2 p q)
      ((contrEquiv1 dot_S8192x64_S256x64_S8192x256_1_1_0_0_n_n 64 rfl rfl).symm k) = ix2 p k :=
    funext fun a => Fin.ext (by
      match a with
      | ⟨0, _⟩ => exact dot_lhs_row _ _
      | ⟨1, _⟩ => exact (dot_S8192x64_S256x64_S8192x256_1_1_0_0_n_n.lhsIdx_val_of_single rfl _ _).trans hk)
  have er : dot_S8192x64_S256x64_S8192x256_1_1_0_0_n_n.rhsIdx (ix2 p q)
      ((contrEquiv1 dot_S8192x64_S256x64_S8192x256_1_1_0_0_n_n 64 rfl rfl).symm k) = ix2 q k :=
    funext fun a => Fin.ext (by
      match a with
      | ⟨0, _⟩ => exact dot_rhs_row _ _
      | ⟨1, _⟩ => exact (dot_S8192x64_S256x64_S8192x256_1_1_0_0_n_n.rhsIdx_val_of_single rfl _ _).trans hk)
  rw [el, er]

/-- The bias row spread over the 8192 rows, at entry `(p, q)`: the row's entry `q`. -/
theorem bias_rows (v : FVec Ideal S1x256 .f32) (p : Fin 8192) (q : Fin 256) :
    broadcastTo S8192x256 v broadcasts_S1x256_S8192x256 (ix2 p q) = v (ix2 (0 : Fin 1) q) :=
  broadcastTo_apply v broadcasts_S1x256_S8192x256 (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The body's stored value at entry `(p, q)`: feature row `p` against weight row `q` of the block, plus bias `q` of
    the block. -/
theorem tile_apply (x0 : Vec Ideal S8192x64 .bf16) (x1 : Vec Ideal S256x64 .bf16) (x2 : Vec Ideal S1x256 .f32)
    (p : Fin 8192) (q : Fin 256) :
    k0_pay1 (F := Ideal) x0 x1 x2 (ix2 p q)
      = (∑ k : Fin 64, x0 (ix2 p k) * x1 (ix2 q k)) + x2 (ix2 (0 : Fin 1) q) := by
  unfold k0_pay1
  simp only [shapeCast_self]
  exact congrArg₂ (· + ·) (tile_dot x0 x1 p q) (bias_rows x2 p q)

end Cert.PixelHeads

end
-- ==== Proof.Staged.lean ====
/-
  The three arrays the kernel's region is launched on, read at an entry.

  Before the region the program re-orders the pixel heads: pixel number p = y · 82 + x (grid position (x, y)) is moved
  to position q = x · 67 + y — the weights' and the biases' pixel axis is split as (y, x), the two grid axes are
  swapped, and the axis is flattened again. Both are then padded with zeros from 5494 to 5632 = 22 · 256 heads, the
  biases are laid out as one [1, 5632] row, and features and weights change float format, which on the extended reals
  changes nothing. So below position 5494 the staged weights and biases at position q are the arguments' at pixel
  (q mod 67) · 82 + q / 67, and the staged features are the features.
-/
import proofs.«101536_j62929860821463_2_alg».proof.Proof.Gen.KernelIdeal.Frame
import Idealize.ShloMosaic.Lib.StableHlo.Run
import Idealize.ShloMosaic.Lib.KernelVsHost
import Idealize.ShloMosaic.Lib.Pipeline.Value
import Idealize.ShloMosaic.Lib.ValueIdx

noncomputable section

namespace Cert.PixelHeads

open Idealize.ShloMosaic Idealize.ShloMosaic.TcCoe Idealize.SL.Sem Idealize.ShloMosaic.StableHlo
open Idealize.ShloMosaic.ValueIdx Cert.KernelIdeal Cert.KernelIdeal.Gen

variable (m : (ℓ : Loc nD τ sig) → Buf (Elt Ideal) ℓ)

/-- The pixel whose head sits at position `q` of the re-ordered pixel axis: `q = x · 67 + y` holds pixel `y · 82 + x`. -/
def pixelAt (q : Fin 5494) : Fin 5494 :=
  ⟨q.val % 67 * 82 + q.val / 67, by have := q.isLt; omega⟩

/-- The staged features are the features. -/
theorem staged_features (c : Dev nD) (i : S8192x64.Idx) :
    V m c main_v10 i = m ((c : Thread nD τ).loc main_arg0) i := by
  have e : @Eq (S8192x64.Idx → EReal) (V m c main_v10)
      (truncf (F := Ideal) .bf16 (m ((c : Thread nD τ).loc main_arg0)) Gen.bitsLt_bf16_f32) := by
    dsimp only [Gen.V, Gen.V0]
    simp only [Gen.hostOps0, Gen.hostOps0_1, Gen.hostOps0_2, Gen.hostOps0_3, Gen.hostOps0_4, List.flatten_cons,
      List.flatten_nil, List.append_nil, List.cons_append, List.nil_append]
    after_results <;> rfl
  rw [e]
  rfl

/-- The staged weights at row `q < 5494`: the weights of pixel `pixelAt q`. -/
theorem staged_weights (c : Dev nD) (q : Fin 5494) (k : Fin 64) :
    V m c main_v7 (ix2 (⟨q.val, by have := q.isLt; omega⟩ : Fin 5632) k)
      = m ((c : Thread nD τ).loc main_arg1) (ix2 (pixelAt q) k) := by
  have e : @Eq (S5632x64.Idx → EReal) (V m c main_v7)
      (truncf (F := Ideal) .bf16 (pad S5632x64 ![0, 0] ![138, 0] ![0, 0]
          (shapeCast S5494x64 (transpose S82x67x64 [1, 0, 2]
            (shapeCast S67x82x64 (m ((c : Thread nD τ).loc main_arg1)) Gen.shapeCasts_S5494x64_S67x82x64)
            Gen.transposes_S67x82x64_S82x67x64_1_0_2) Gen.shapeCasts_S82x67x64_S5494x64)
          (sitofp (F := Ideal) .f32 (constantI S_ 32 0#32)) Gen.pads_S5494x64_S5632x64_01380_000 Gen.h_S_)
        Gen.bitsLt_bf16_f32) := by
    dsimp only [Gen.V, Gen.V0]
    simp only [Gen.hostOps0, Gen.hostOps0_1, Gen.hostOps0_2, Gen.hostOps0_3, Gen.hostOps0_4, List.flatten_cons,
      List.flatten_nil, List.append_nil, List.cons_append, List.nil_append]
    after_results <;> rfl
  have hq : q.val < 5494 := q.isLt
  have hk : k.val < 64 := k.isLt
  rw [e, truncf_apply]
  rw [pad_apply_of_inside _ _ _ _ _ Gen.pads_S5494x64_S5632x64_01380_000 Gen.h_S_ _ (ix2 q k) (fun a => match a with
      | ⟨0, _⟩ => by show q.val = 0 + q.val * (0 + 1); omega
      | ⟨1, _⟩ => by show k.val = 0 + k.val * (0 + 1); omega),
    shapeCast_apply _ Gen.shapeCasts_S82x67x64_S5494x64 (ix2 q k)
      (ix3 (⟨q.val / 67, by omega⟩ : Fin 82) (⟨q.val % 67, by omega⟩ : Fin 67) k)
      (by rewrite [Shape.rowMajor_val_two, Shape.rowMajor_val_three]
          show (q.val / 67 * 67 + q.val % 67) * 64 + k.val = q.val * 64 + k.val; omega),
    transpose_apply [1, 0, 2] _ Gen.transposes_S67x82x64_S82x67x64_1_0_2
      (ix3 (⟨q.val / 67, by omega⟩ : Fin 82) (⟨q.val % 67, by omega⟩ : Fin 67) k)
      (ix3 (⟨q.val % 67, by omega⟩ : Fin 67) (⟨q.val / 67, by omega⟩ : Fin 82) k)
      (fun b => match b with
        | ⟨0, _⟩ => rfl
        | ⟨1, _⟩ => rfl
        | ⟨2, _⟩ => rfl),
    shapeCast_apply _ Gen.shapeCasts_S5494x64_S67x82x64
      (ix3 (⟨q.val % 67, by omega⟩ : Fin 67) (⟨q.val / 67, by omega⟩ : Fin 82) k) (ix2 (pixelAt q) k)
      (by rewrite [Shape.rowMajor_val_two, Shape.rowMajor_val_three]
          show (q.val % 67 * 82 + q.val / 67) * 64 + k.val = (q.val % 67 * 82 + q.val / 67) * 64 + k.val; rfl)]

/-- The staged bias row at position `q < 5494`: the bias of pixel `pixelAt q`. -/
theorem staged_bias (c : Dev nD) (q : Fin 5494) :
    V m c main_v9 (ix2 (0 : Fin 1) (⟨q.val, by have := q.isLt; omega⟩ : Fin 5632))
      = m ((c : Thread nD τ).loc main_arg2) (ix1 (pixelAt q)) := by
  have e : @Eq (S1x5632.Idx → EReal) (V m c main_v9)
      (shapeCast S1x5632 (pad S5632 ![0] ![138] ![0]
          (shapeCast S5494 (transpose S82x67 [1, 0]
            (shapeCast S67x82 (m ((c : Thread nD τ).loc main_arg2)) Gen.shapeCasts_S5494_S67x82)
            Gen.transposes_S67x82_S82x67_1_0) Gen.shapeCasts_S82x67_S5494)
          (sitofp (F := Ideal) .f32 (constantI S_ 32 0#32)) Gen.pads_S5494_S5632_01380 Gen.h_S_)
        Gen.shapeCasts_S5632_S1x5632) := by
    dsimp only [Gen.V, Gen.V0]
    simp only [Gen.hostOps0, Gen.hostOps0_1, Gen.hostOps0_2, Gen.hostOps0_3, Gen.hostOps0_4, List.flatten_cons,
      List.flatten_nil, List.append_nil, List.cons_append, List.nil_append]
    after_results <;> rfl
  have hq : q.val < 5494 := q.isLt
  rw [e,
    shapeCast_apply _ Gen.shapeCasts_S5632_S1x5632 (ix2 (0 : Fin 1) (⟨q.val, by omega⟩ : Fin 5632))
      (ix1 (⟨q.val, by omega⟩ : Fin 5632))
      (by rewrite [Shape.rowMajor_val_one, Shape.rowMajor_val_two]
          show q.val = 0 * 5632 + q.val; omega),
    pad_apply_of_inside _ _ _ _ _ Gen.pads_S5494_S5632_01380 Gen.h_S_ _ (ix1 q) (fun a => match a with
      | ⟨0, _⟩ => by show q.val = 0 + q.val * (0 + 1); omega),
    shapeCast_apply _ Gen.shapeCasts_S82x67_S5494 (ix1 q)
      (ix2 (⟨q.val / 67, by omega⟩ : Fin 82) (⟨q.val % 67, by omega⟩ : Fin 67))
      (by rewrite [Shape.rowMajor_val_one, Shape.rowMajor_val_two]
          show q.val / 67 * 67 + q.val % 67 = q.val; omega),
    transpose_apply [1, 0] _ Gen.transposes_S67x82_S82x67_1_0
      (ix2 (⟨q.val / 67, by omega⟩ : Fin 82) (⟨q.val % 67, by omega⟩ : Fin 67))
      (ix2 (⟨q.val % 67, by omega⟩ : Fin 67) (⟨q.val / 67, by omega⟩ : Fin 82))
      (fun b => match b with
        | ⟨0, _⟩ => rfl
        | ⟨1, _⟩ => rfl),
    shapeCast_apply _ Gen.shapeCasts_S5494_S67x82
      (ix2 (⟨q.val % 67, by omega⟩ : Fin 67) (⟨q.val / 67, by omega⟩ : Fin 82)) (ix1 (pixelAt q))
      (by rewrite [Shape.rowMajor_val_one, Shape.rowMajor_val_two]
          show q.val % 67 * 82 + q.val / 67 = q.val % 67 * 82 + q.val / 67; rfl)]

end Cert.PixelHeads

end
-- ==== Proof.Blocks.lean ====
/-
  The 22 tiles of the kernel's output, one per grid point: where each window's block sits, and what it holds.

  The pixel axis (5494 positions after the re-ordering) is cut into 22 tiles of 256 columns; 22 · 256 = 5632, so the
  last tile overhangs the array by 138 columns and only its first 118 columns are written back. Grid point t works on
  all 8192 feature rows, on weight rows and bias entries t · 256 … t · 256 + 255 of the padded operands, and writes
  columns t · 256 … of the output. Column Q of the output therefore comes from tile Q / 256.
-/
import proofs.«101536_j62929860821463_2_alg».proof.Proof.Spec
import proofs.«101536_j62929860821463_2_alg».proof.Proof.Tile
import proofs.«101536_j62929860821463_2_alg».proof.Proof.Staged

set_option maxRecDepth 16384

noncomputable section

open scoped BigOperators

namespace Cert.PixelHeads

open Idealize.ShloMosaic Idealize.ShloMosaic.TcCoe Idealize.SL.Sem
open Idealize.ShloMosaic.ValueIdx Cert.KernelIdeal Cert.KernelIdeal.Gen

variable (m : (ℓ : Loc nD τ sig) → Buf (Elt Ideal) ℓ)

/-- The kernel's output array as one function of the arguments: entry `(r, Q)` is the head of the pixel at position
    `Q` of the re-ordered axis, on row `r`. -/
def tiled (c : Dev nD) : S8192x5494.Idx → EReal := fun i =>
  head (m ((c : Thread nD τ).loc main_arg0)) (m ((c : Thread nD τ).loc main_arg1)) (m ((c : Thread nD τ).loc main_arg2))
    (i 0) (pixelAt (i 1))

/-- `tiled` at an index given by its coordinates. -/
theorem tiled_at (c : Dev nD) (i : S8192x5494.Idx) (p : Fin 8192) (Q : Fin 5494) (h0 : (i 0).val = p.val)
    (h1 : (i 1).val = Q.val) :
    tiled m c i = head (m ((c : Thread nD τ).loc main_arg0)) (m ((c : Thread nD τ).loc main_arg1))
      (m ((c : Thread nD τ).loc main_arg2)) p (pixelAt Q) := by
  have e0 : i 0 = p := Fin.ext h0
  have e1 : i 1 = Q := Fin.ext h1
  unfold tiled
  rw [e0, e1]

theorem zero_offsets : (![0, 0] : Fin 2 → Nat) = fun _ => 0 := funext fun a => by fin_cases a <;> rfl

/-- Where the four windows' blocks sit at grid point `t`, decided over the 22 points: the features' block is the whole
    array; the weights' block is block `t` of the rows; the biases' block and the output's block are block `t` of the
    columns; and the output's block, cut at the array's end, keeps all its rows and the columns below 5494. -/
theorem block_places : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_3.xsize (grid0.coords t) (0 : Fin 2) = 8192
    ∧ t.val * 256 + win0_3.xsize (grid0.coords t) (1 : Fin 2) = min (t.val * 256 + 256) 5494 :=
  (by decide +kernel : ∀ t : Fin grid0.N, _)

/-- The body's tile at an entry given by its coordinates. -/
theorem tile_entry (x0 : Vec Ideal S8192x64 .bf16) (x1 : Vec Ideal S256x64 .bf16) (x2 : Vec Ideal S1x256 .f32)
    (y : S8192x256.Idx) (p : Fin 8192) (q : Fin 256) (hp : (y 0).val = p.val) (hq : (y 1).val = q.val) :
    k0_pay1 (F := Ideal) x0 x1 x2 y = (∑ k : Fin 64, x0 (ix2 p k) * x1 (ix2 q k)) + x2 (ix2 (0 : Fin 1) q) := by
  have e : y = ix2 p q := funext fun a => Fin.ext (by
    match a with
    | ⟨0, _⟩ => exact hp
    | ⟨1, _⟩ => exact hq)
  rw [e]
  exact tile_apply x0 x1 x2 p q

/-- The features' block at any point is the features. -/
theorem features_block (c : Dev nD) (t : Fin cfg0.N) (p : Fin 8192) (k : Fin 64) :
    iblk m c 0 t (ix2 p k) = m ((c : Thread nD τ).loc main_arg0) (ix2 p k) := by
  obtain ⟨e0, e1, -⟩ := block_places t
  show V m c main_v10 (((cfg0.win 0).blk t).view.emb (ix2 p k)) = _
  refine (staged_features m c _).trans (congrArg _ (funext fun a => Fin.ext ?_))
  match a with
  | ⟨0, _⟩ => show win0_0.index t (0 : Fin 2) * 8192 + 1 * p.val = p.val; omega
  | ⟨1, _⟩ => show win0_0.index t (1 : Fin 2) * 64 + 1 * k.val = k.val; omega

/-- Row `q` of the weights' block at point `t`, when it is one of the 5494 real rows: the weights of the pixel at
    position `t · 256 + q`. -/
theorem weights_block (c : Dev nD) (t : Fin cfg0.N) (q : Fin 256) (k : Fin 64) (Q : Fin 5494)
    (hQ : Q.val = t.val * 256 + q.val) :
    iblk m c 1 t (ix2 q k) = m ((c : Thread nD τ).loc main_arg1) (ix2 (pixelAt Q) k) := by
  obtain ⟨-, -, e0, e1, -⟩ := block_places t
  show V m c main_v7 (((cfg0.win 1).blk t).view.emb (ix2 q k)) = _
  refine Eq.trans (congrArg _ (funext fun a => Fin.ext ?_)) (staged_weights m c Q k)
  match a with
  | ⟨0, _⟩ => show win0_1.index t (0 : Fin 2) * 256 + 1 * q.val = Q.val; omega
  | ⟨1, _⟩ => show win0_1.index t (1 : Fin 2) * 64 + 1 * k.val = k.val; omega

/-- Entry `q` of the biases' block at point `t`, likewise. -/
theorem bias_block (c : Dev nD) (t : Fin cfg0.N) (q : Fin 256) (Q : Fin 5494) (hQ : Q.val = t.val * 256 + q.val) :
    iblk m c 2 t (ix2 (0 : Fin 1) q) = m ((c : Thread nD τ).loc main_arg2) (ix1 (pixelAt Q)) := by
  obtain ⟨-, -, -, -, e0, e1, -⟩ := block_places t
  show V m c main_v9 (((cfg0.win 2).blk t).view.emb (ix2 (0 : Fin 1) q)) = _
  refine Eq.trans (congrArg _ (funext fun a => Fin.ext ?_)) (staged_bias m c Q)
  match a with
  | ⟨0, _⟩ => show win0_2.index t (0 : Fin 2) * 1 + 1 * 0 = 0; omega
  | ⟨1, _⟩ => show win0_2.index t (1 : Fin 2) * 256 + 1 * q.val = Q.val; omega

/-- An index of the output array is in point `t`'s block iff each coordinate is in the range the block keeps on its
    axis. -/
theorem mem_block (t : Fin cfg0.N) (i : S8192x5494.Idx) :
    i ∈ ((cfg0.win 3).blk t).view.set ↔ ∀ a : Fin 2, win0_3.index t a * S8192x256.size a ≤ (i a).val
      ∧ (i a).val < win0_3.index t a * S8192x256.size a + win0_3.xsize (grid0.coords t) a := by
  show i ∈ ((View.whole main_v11).slice (win0_3.rect t)).set ↔ _
  rw [View.set_slice_whole, Rect.mem_set_unit]
  exact Iff.rfl

/-- Every index of the output array is in the block of the point numbered by its column's tile. -/
theorem covered (i : S8192x5494.Idx) :
    ∃ t : Fin cfg0.N, (cfg0.win 3).flush t = true ∧ i ∈ ((cfg0.win 3).blk t).view.set := by
  have h0 : (i 0).val < 8192 := (i 0).isLt
  have h1 : (i 1).val < 5494 := (i 1).isLt
  have hN : (i 1).val / 256 < cfg0.N := by show _ < grid0.N; rw [N_0]; omega
  refine ⟨⟨(i 1).val / 256, hN⟩, flush0_3 _, ?_⟩
  rw [mem_block]
  obtain ⟨-, -, -, -, -, -, e30, e31, ex0, ex1⟩ := block_places ⟨(i 1).val / 256, hN⟩
  have ht : (⟨(i 1).val / 256, hN⟩ : Fin cfg0.N).val = (i 1).val / 256 := rfl
  intro a
  match a with
  | ⟨0, _⟩ =>
    show win0_3.index ⟨(i 1).val / 256, hN⟩ (0 : Fin 2) * 8192 ≤ (i 0).val
      ∧ (i 0).val < win0_3.index ⟨(i 1).val / 256, hN⟩ (0 : Fin 2) * 8192
        + win0_3.xsize (grid0.coords ⟨(i 1).val / 256, hN⟩) (0 : Fin 2)
    omega
  | ⟨1, _⟩ =>
    show win0_3.index ⟨(i 1).val / 256, hN⟩ (1 : Fin 2) * 256 ≤ (i 1).val
      ∧ (i 1).val < win0_3.index ⟨(i 1).val / 256, hN⟩ (1 : Fin 2) * 256
        + win0_3.xsize (grid0.coords ⟨(i 1).val / 256, hN⟩) (1 : Fin 2)
    omega

end Cert.PixelHeads

end
-- ==== Proof.Cover.lean ====
/-
  From the 22 tiles to the kernel's whole output array.

  What grid point t writes back is the part of its tile that lies inside the array, and that part is block t of one
  function of the arguments: entry (r, Q) is the head of the pixel that sits at position Q of the re-ordered axis, on
  row r. The padding rows of the operands only ever feed the columns that are not written back. Since every column
  lies in the tile numbered by its quotient by 256, the array ends holding that function everywhere.
-/
import proofs.«101536_j62929860821463_2_alg».proof.Proof.Blocks

set_option maxRecDepth 16384

noncomputable section

open scoped BigOperators

namespace Cert.PixelHeads

open Idealize.ShloMosaic Idealize.ShloMosaic.TcCoe Idealize.SL.Sem
open Idealize.ShloMosaic.ValueIdx Cert.KernelIdeal Cert.KernelIdeal.Gen

variable (m : (ℓ : Loc nD τ sig) → Buf (Elt Ideal) ℓ)

/-- An entry of the tile at point `t` is the entry of `tiled` in the same row and `t · 256` columns further: feature
    row against the weights of the pixel at that column's position, plus its bias. (The column is inside the array,
    so the weight row and the bias entry read are real ones, not padding.) -/
theorem tile_is_block (c : Dev nD) (t : Fin cfg0.N) (y : S8192x256.Idx) (i : S8192x5494.Idx)
    (h0 : (i 0).val = (y 0).val) (h1 : (i 1).val = t.val * 256 + (y 1).val) :
    k0_pay1 (F := Ideal) (iblk m c 0 t) (iblk m c 1 t) (iblk m c 2 t) y = tiled m c i := by
  refine (tile_entry (iblk m c 0 t) (iblk m c 1 t) (iblk m c 2 t) y (y 0) (y 1) rfl rfl).trans ?_
  refine Eq.trans ?_ (tiled_at m c i (y 0) (i 1) h0 rfl).symm
  unfold head
  exact congrArg₂ (· + ·)
    (Finset.sum_congr rfl fun k _ => congrArg₂ (· * ·) (features_block m c t (y 0) k)
      (weights_block m c t (y 1) k (i 1) h1))
    (bias_block m c t (y 1) (i 1) h1)

/-- What point `t` writes back — the part of its tile inside the array — is block `t` of `tiled`. -/
theorem flushed_eq (c : Dev nD) (t : Fin cfg0.N) :
    (dats m 0 c).flushed 3 t = ((cfg0.win 3).blk t).view.read (Elt Ideal) (tiled m c) := by
  show (cfg0.win 3).cut (grid0.coords t) ((dats m 0 c).after 3 t) = _
  rw [after0_3]
  unfold out0_3
  rw [View.canon_unit_zero zero_offsets]
  simp only [View.ld_unit_zero (S := S8192x64) zero_offsets, View.ld_unit_zero (S := S256x64) zero_offsets,
    View.ld_unit_zero (S := S1x256) zero_offsets]
  obtain ⟨-, -, -, -, -, -, e30, e31, -⟩ := block_places t
  funext j
  show k0_pay1 (F := Ideal) (iblk m c 0 t) (iblk m c 1 t) (iblk m c 2 t) (win0_3.xinj (grid0.coords t) j)
    = tiled m c (((cfg0.win 3).blk t).view.emb j)
  exact tile_is_block m c t (win0_3.xinj (grid0.coords t) j) (((cfg0.win 3).blk t).view.emb j)
    (by show win0_3.index t (0 : Fin 2) * 8192 + 1 * (j _).val = (j _).val; omega)
    (by show win0_3.index t (1 : Fin 2) * 256 + 1 * (j _).val = t.val * 256 + (j _).val; omega)

/-- The output array after the run is `tiled`. -/
theorem output_eq (c : Dev nD) : (dats m 0 c).arrAt 3 cfg0.N = tiled m c :=
  (dats m 0 c).arrAt_eq_of_cover 3 (tiled m c) (fun t _ => flushed_eq m c t) covered

end Cert.PixelHeads

end
-- ==== Proof.KernelSide.lean ====
/-
  The kernel's program computes the specification.

  After the region the program only re-labels the output: column Q = x · 67 + y of the [8192, 5494] array becomes
  grid position (x, y), and a trailing axis of length one is added. Column Q holds the head of the pixel at position Q
  of the re-ordered axis, which is pixel (Q mod 67) · 82 + Q / 67 = y · 82 + x: the pixel of grid position (x, y). So
  the re-ordering done before the region is undone by reading the columns in their own order.
-/
import proofs.«101536_j62929860821463_2_alg».proof.Proof.Cover

noncomputable section

namespace Cert.PixelHeads

open Idealize.ShloMosaic Idealize.ShloMosaic.TcCoe Idealize.SL.Sem Idealize.ShloMosaic.StableHlo
open Idealize.ShloMosaic.ValueIdx Cert.KernelIdeal Cert.KernelIdeal.Gen

variable (m : (ℓ : Loc nD τ sig) → Buf (Elt Ideal) ℓ) (ρ : Dev nD → PrngReg)

/-- The program's result after the lines that follow the region: the output array reshaped to the grid, with a trailing
    unit axis. -/
theorem result_eq (c : Dev nD) :
    @Eq (S8192x82x67x1.Idx → EReal) (Pipeline.afterTail₀ cfgs (dats m) 0 (V0 m) [hostOps1] c main_v13)
      (broadcastInDim S8192x82x67x1 ![0, 1, 2] Gen.bcast_S8192x82x67_S8192x82x67x1_0_1_2
        (shapeCast S8192x82x67 (tiled m c) Gen.shapeCasts_S8192x5494_S8192x82x67)) := by
  have hA : @Eq (S8192x5494.Idx → EReal)
      (Pipeline.withArrays (cfgs 0).spec c (V0 m c) (fun w => (dats m 0 c).arrAt w (cfgs 0).N) (Proc.devRef .tc main_v11))
      (tiled m c) :=
    (Pipeline.withArrays_arr spec0 launch0.win.arr_inj c _ _ 3).trans (output_eq m c)
  unfold Pipeline.afterTail₀
  show StableHlo.after hostOps1 _ (Proc.devRef .tc main_v13) = _
  after_results
  rw [hA]
  rfl

/-- Read at a grid position, the reshaped output is the specification. -/
theorem grid_eq_heads (c : Dev nD) :
    broadcastInDim S8192x82x67x1 ![0, 1, 2] Gen.bcast_S8192x82x67_S8192x82x67x1_0_1_2
        (shapeCast S8192x82x67 (tiled m c) Gen.shapeCasts_S8192x5494_S8192x82x67)
      = heads (m ((c : Thread nD τ).loc main_arg0)) (m ((c : Thread nD τ).loc main_arg1))
          (m ((c : Thread nD τ).loc main_arg2)) := by
  funext i
  have h0 : (i 0).val < 8192 := (i 0).isLt
  have h1 : (i 1).val < 82 := (i 1).isLt
  have h2 : (i 2).val < 67 := (i 2).isLt
  rw [broadcastInDim_apply _ Gen.bcast_S8192x82x67_S8192x82x67x1_0_1_2 _ i
      (ix3 (⟨(i 0).val, h0⟩ : Fin 8192) (⟨(i 1).val, h1⟩ : Fin 82) (⟨(i 2).val, h2⟩ : Fin 67)) (fun a => match a with
      | ⟨0, _⟩ => by show (i 0).val = if (8192 : Nat) = 1 then 0 else (i 0).val; rw [if_neg (by decide)]
      | ⟨1, _⟩ => by show (i 1).val = if (82 : Nat) = 1 then 0 else (i 1).val; rw [if_neg (by decide)]
      | ⟨2, _⟩ => by show (i 2).val = if (67 : Nat) = 1 then 0 else (i 2).val; rw [if_neg (by decide)]),
    shapeCast_apply _ Gen.shapeCasts_S8192x5494_S8192x82x67
      (ix3 (⟨(i 0).val, h0⟩ : Fin 8192) (⟨(i 1).val, h1⟩ : Fin 82) (⟨(i 2).val, h2⟩ : Fin 67))
      (ix2 (⟨(i 0).val, h0⟩ : Fin 8192) (⟨(i 1).val * 67 + (i 2).val, by omega⟩ : Fin 5494))
      (by rewrite [Shape.rowMajor_val_two, Shape.rowMajor_val_three]
          show (i 0).val * 5494 + ((i 1).val * 67 + (i 2).val) = ((i 0).val * 82 + (i 1).val) * 67 + (i 2).val; omega),
    tiled_at m c _ (i 0) (⟨(i 1).val * 67 + (i 2).val, by omega⟩ : Fin 5494) rfl rfl]
  unfold heads
  refine congrArg _ (Fin.ext ?_)
  show ((i 1).val * 67 + (i 2).val) % 67 * 82 + ((i 1).val * 67 + (i 2).val) / 67 = (i 2).val * 82 + (i 1).val
  omega

/-- The kernel's program run: every weakly fair execution terminates with the result at the specification of the
    arguments, the arguments unchanged. -/
theorem kernel_run : θ_run defs (onTc (τ := τ) (main (F := Ideal))) ⟨m, fun _ => 0, ρ⟩ (fun r => ∀ c : Dev nD,
      r.2.mem ((c.tc : Thread nD τ).loc main_v13)
          = heads (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v13 (Pipeline.mem_restRefs_of main_v13 (by decide) (by decide))).trans
        ((result_eq m c).trans (grid_eq_heads m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.PixelHeads

end
-- ==== Proof.lean ====
/-
  5494 linear pixel heads on 8192 feature rows, laid out on an 82 × 67 grid: the kernel against its reference.

  Both programs compute, for every row r and grid position (x, y), the dot product of row r's 64 features with the 64
  weights of pixel y · 82 + x, plus that pixel's bias (Proof/Spec.lean, `heads`).

  The reference takes all the products at once and then re-labels the pixel axis as the grid (Proof/RefSide.lean). The
  kernel first re-orders the weights and biases so that pixel y · 82 + x sits at position x · 67 + y, pads them with
  zero heads to 22 tiles of 256 (Proof/Staged.lean), computes one tile of 256 heads per grid point on all the rows
  (Proof/Tile.lean), writes back the part of each tile that lies inside the [8192, 5494] output — the padding heads fall
  outside it (Proof/Cover.lean) — and reads the columns back as grid positions (Proof/KernelSide.lean). The two sides
  are the same sums of the same products in the same order; nothing is used of the extended reals beyond that, so the
  precondition (finite inputs) is never opened.

  The three frames are the generated frame runs; the idealization rewrote nothing, so `preserves` is trivial.
-/
import proofs.«101536_j62929860821463_2_alg».proof.Defs
import proofs.«101536_j62929860821463_2_alg».proof.Proof.Gen.Kernel
import proofs.«101536_j62929860821463_2_alg».proof.Proof.Gen.Kernel.Skeleton
import proofs.«101536_j62929860821463_2_alg».proof.Proof.Gen.Kernel.Launch
import proofs.«101536_j62929860821463_2_alg».proof.Proof.Gen.Kernel.Points
import proofs.«101536_j62929860821463_2_alg».proof.Proof.Gen.Kernel.Frame
import proofs.«101536_j62929860821463_2_alg».proof.Proof.Gen.KernelIdeal
import proofs.«101536_j62929860821463_2_alg».proof.Proof.Gen.KernelIdeal.Skeleton
import proofs.«101536_j62929860821463_2_alg».proof.Proof.Gen.KernelIdeal.Launch
import proofs.«101536_j62929860821463_2_alg».proof.Proof.Gen.KernelIdeal.Points
import proofs.«101536_j62929860821463_2_alg».proof.Proof.Gen.KernelIdeal.Frame
import proofs.«101536_j62929860821463_2_alg».proof.Proof.Gen.ReferenceIdeal
import proofs.«101536_j62929860821463_2_alg».proof.Proof.Gen.ReferenceIdeal.Run
import proofs.«101536_j62929860821463_2_alg».proof.Proof.Gen.ReferenceIdeal.Read
import proofs.«101536_j62929860821463_2_alg».proof.Proof.Gen.Pre_finite_inputs
import proofs.«101536_j62929860821463_2_alg».proof.Proof.RefSide
import proofs.«101536_j62929860821463_2_alg».proof.Proof.KernelSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with their result at `heads` of the arguments. -/
theorem algebraic : Cert.algebraic_KernelIdeal_ReferenceIdeal := by
  intro m ρ m' ρ' _ hagree
  refine ⟨fun c => Cert.PixelHeads.heads
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.PixelHeads.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.PixelHeads.reference_eq_heads, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
